-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x128 : Shape := ⟨2, ![100000, 128]⟩
abbrev S100000 : Shape := ⟨1, ![100000]⟩
abbrev S2x500000 : Shape := ⟨2, ![2, 500000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256x256 .f32) (main_arg11 : FVec F S256 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128 .f32) (main_arg8 : FVec F S256x128 .f32) (main_arg9 : FVec F S256 .f32) (main_arg10 : FVec F S256x256 .f32) (main_arg11 : FVec F S256 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S500000x128 .f32) (main_arg1 : FVec F S100000x128 .f32) (main_arg2 : IVec S100000 32) (main_arg3 : IVec S2x500000 32) (main_arg4 : FVec F S128 .f32) (main_arg5 : FVec F S128 .f32) (main_arg6 : FVec F S128 .f32) (main_arg7 : FVec F S128 .f32) (main_arg8 : FVec F S256x128 .f32) (main_arg9 : FVec F S256 .f32) (main_arg10 : FVec F S256x256 .f32) (main_arg11 : FVec F S256 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S500000x128 : Shape := ⟨2, ![500000, 128]⟩
abbrev S100000x128 : Shape := ⟨2, ![100000, 128]⟩
abbrev S100000 : Shape := ⟨1, ![100000]⟩
abbrev S2x500000 : Shape := ⟨2, ![2, 500000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x128 : Shape := ⟨2, ![128, 128]⟩
abbrev S1x128 : Shape := ⟨2, ![1, 128]⟩
abbrev S1x256 : Shape := ⟨2, ![1, 256]⟩
abbrev S500000x256 : Shape := ⟨2, ![500000, 256]⟩
abbrev S4000x128 : Shape := ⟨2, ![4000, 128]⟩
abbrev S4000x256 : Shape := ⟨2, ![4000, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S5000x128 : Shape := ⟨2, ![5000, 128]⟩

abbrev nBuf : Space → Nat
  | .hbm => 49
  | .vmem => 24
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S100000, .i32⟩
  | .hbm, ⟨3, _⟩ => ⟨S2x500000, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x128, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x256, .f32⟩
  | .hbm, ⟨25, _⟩ => ⟨S1x256, .f32⟩
  | .hbm, ⟨26, _⟩ => ⟨S500000x256, .f32⟩
  | .hbm, ⟨27, _⟩ => ⟨S1x500000, .i32⟩
  | .hbm, ⟨28, _⟩ => ⟨S500000, .i32⟩
  | .hbm, ⟨29, _⟩ => ⟨S1x500000, .i32⟩
  | .hbm, ⟨30, _⟩ => ⟨S500000, .i32⟩
  | .hbm, ⟨31, _⟩ => ⟨S500000x128, .f32⟩
  | .hbm, ⟨32, _⟩ => ⟨S_, .f32⟩
  | .hbm, ⟨33, _⟩ => ⟨S100000x128, .f32⟩
  | .hbm, ⟨34, _⟩ => ⟨S500000x1, .i32⟩
  | .hbm, ⟨35, _⟩ => ⟨S100000x128, .f32⟩
  | .hbm, ⟨36, _⟩ => ⟨S500000x128, .f32⟩
  | .hbm, ⟨37, _⟩ => ⟨S_, .f32⟩
  | .hbm, ⟨38, _⟩ => ⟨S100000x128, .f32⟩
  | .hbm, ⟨39, _⟩ => ⟨S500000x1, .i32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S256x128, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S500000x256_S500000x128_0_0 : S500000x256.Slices ![0, 0] S500000x128
  bcast_S_S100000x128 : S_.BroadcastsInDim S100000x128 (![] : Fin 0 → Fin S100000x128.rank)
  bcast_S500000_S500000x1_0 : S500000.BroadcastsInDim S500000x1 (![0] : Fin 1 → Fin S500000x1.rank)
  slices_S500000x256_S500000x128_0_128 : S500000x256.Slices ![0, 128] S500000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  dot_S4000x128_S256x128_S4000x256_1_1_0_0_n_n_wf : DotDims.WF S4000x128 S256x128 S4000x256 [1] [1] [0] [0] [] []
  dot_S4000x256_S256x256_S4000x256_1_1_0_0_n_n_wf : DotDims.WF S4000x256 S256x256 S4000x256 [1] [1] [0] [0] [] []
  scatter_S100000x128_S500000x1_S500000x128_1_0_0_1_wf : ScatterDims.WF S100000x128 S500000x1 S500000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S500000x256.size a
  hwx0_9 : ∀ i : grid0.Coords, EltTy.bits .f32 = 32 ∨ (Rect.block (s := S500000x256) S4000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def dot_S4000x128_S256x128_S4000x256_1_1_0_0_n_n : DotDims S4000x128 S256x128 S4000x256 where
  lhsContracting := [1]
  rhsContracting := [1]
  lhsNonContracting := [0]
  rhsNonContracting := [0]
  lhsBatch := []
  rhsBatch := []
  wf := dot_S4000x128_S256x128_S4000x256_1_1_0_0_n_n_wf
def dot_S4000x256_S256x256_S4000x256_1_1_0_0_n_n : DotDims S4000x256 S256x256 S4000x256 where
  lhsContracting := [1]
  rhsContracting := [1]
  lhsNonContracting := [0]
  rhsNonContracting := [0]
  lhsBatch := []
  rhsBatch := []
  wf := dot_S4000x256_S256x256_S4000x256_1_1_0_0_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S500000x128 : Shape := ⟨2, ![500000, 128]⟩
abbrev S100000x128 : Shape := ⟨2, ![100000, 128]⟩
abbrev S100000 : Shape := ⟨1, ![100000]⟩
abbrev S2x500000 : Shape := ⟨2, ![2, 500000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x128 : Shape := ⟨2, ![128, 128]⟩
abbrev S1x128 : Shape := ⟨2, ![1, 128]⟩
abbrev S_ : Shape := ⟨0, ![]⟩
abbrev S128x256 : Shape := ⟨2, ![128, 256]⟩
abbrev S500000x256 : Shape := ⟨2, ![500000, 256]⟩
abbrev S1x256 : Shape := ⟨2, ![1, 256]⟩
abbrev S1x500000 : Shape := ⟨2, ![1, 500000]⟩
abbrev S500000 : Shape := ⟨1, ![500000]⟩
abbrev S500000x1 : Shape := ⟨2, ![500000, 1]⟩

abbrev nBuf : Space → Nat
  | .hbm => 93
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S100000, .i32⟩
  | .hbm, ⟨3, _⟩ => ⟨S2x500000, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x128, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S500000x128, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S1x128, .f32⟩
  | .hbm, ⟨34, _⟩ => ⟨S500000x128, .f32⟩
  | .hbm, ⟨35, _⟩ => ⟨S500000x128, .f32⟩
  | .hbm, ⟨36, _⟩ => ⟨S128x256, .f32⟩
  | .hbm, ⟨37, _⟩ => ⟨S500000x256, .f32⟩
  | .hbm, ⟨38, _⟩ => ⟨S1x256, .f32⟩
  | .hbm, ⟨39, _⟩ => ⟨S500000x256, .f32⟩
  | .hbm, ⟨40, _⟩ => ⟨S500000x256, .f32⟩
  | .hbm, ⟨41, _⟩ => ⟨S_, .f32⟩
  | .hbm, ⟨42, _⟩ => ⟨S500000x256, .f32⟩
  | .hbm, ⟨43, _⟩ => ⟨S500000x256, .f32⟩
  | .hbm, ⟨44, _⟩ => ⟨S256x256, .f32⟩
  | .hbm, ⟨45, _⟩ => ⟨S500000x256, .f32⟩
  | .hbm, ⟨46, _⟩ => ⟨S1x256, .f32⟩
  | .hbm, ⟨47, _⟩ => ⟨S500000x256, .f32⟩
  | .hbm, ⟨48, _⟩ => ⟨S500000x256, .f32⟩
  | .hbm, ⟨49, _⟩ => ⟨S500000x128, .f32⟩
  | .hbm, ⟨50, _⟩ => ⟨S1x500000, .i32⟩
  | .hbm, ⟨51, _⟩ => ⟨S500000, .i32⟩
  | .hbm, ⟨52, _⟩ => ⟨S_, .f32⟩
  | .hbm, ⟨53, _⟩ => ⟨S100000x128, .f32⟩
  | .hbm, ⟨54, _⟩ => ⟨S500000x1, .i32⟩
  | .hbm, ⟨55, _⟩ => ⟨S100000x128, .f32⟩
  | .hbm, ⟨56, _⟩ => ⟨S500000x128, .f32⟩
  | .hbm, ⟨57, _⟩ => ⟨S1x500000, .i32⟩
  | .hbm, ⟨58, _⟩ => ⟨S500000, .i32⟩
  | .hbm, ⟨59, _⟩ => ⟨S_, .f32⟩
  | .hbm, ⟨60, _⟩ => ⟨S100000x128, .f32⟩
  | .hbm, ⟨61, _⟩ => ⟨S500000x1, .i32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S128 : S_.BroadcastsInDim S128 (![] : Fin 0 → Fin S128.rank)
  transposes_S256x128_S128x256_1_0 : S256x128.Transposes [1, 0] S128x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S256x256_S256x256_1_0 : S256x256.Transposes [1, 0] S256x256
  slices_S500000x256_S500000x128_0_0 : S500000x256.Slices ![0, 0] S500000x128
  slices_S2x500000_S1x500000_0_0 : S2x500000.Slices ![0, 0] S1x500000
  shapeCasts_S1x500000_S500000 : S1x500000.ShapeCasts S500000
  bcast_S_S100000x128 : S_.BroadcastsInDim S100000x128 (![] : Fin 0 → Fin S100000x128.rank)
  bcast_S500000_S500000x1_0 : S500000.BroadcastsInDim S500000x1 (![0] : Fin 1 → Fin S500000x1.rank)
  slices_S500000x256_S500000x128_0_128 : S500000x256.Slices ![0, 128] S500000x128
  slices_S2x500000_S1x500000_1_0 : S2x500000.Slices ![1, 0] S1x500000
  bcast_S1x128_S100000x128_0_1 : S1x128.BroadcastsInDim S100000x128 (![0, 1] : Fin 2 → Fin S100000x128.rank)
  transposes_S128x128_S128x128_1_0 : S128x128.Transposes [1, 0] S128x128
  dot_S500000x128_S128x256_S500000x256_1_0_0_1_n_n_wf : DotDims.WF S500000x128 S128x256 S500000x256 [1] [0] [0] [1] [] []
  dot_S500000x256_S256x256_S500000x256_1_0_0_1_n_n_wf : DotDims.WF S500000x256 S256x256 S500000x256 [1] [0] [0] [1] [] []
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []

variable [Facts₀]

def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The mathematics both programs compute, stated once, away from either program.

  A row `x : Fin D → EReal` is normalised entry by entry with the per-column statistics,
  `h k = ((x k - mean k) * rsqrt (var k + ε)) * g k + β k`, sent through a linear layer with bias,
  `a j = max (∑ k, h k * w1 j k + b1 j) 0`, and through a second one, `∑ j, a j * w2 q j + b2 q`.
  Both weight matrices are stored output-major (`w j k`: output `j`, input `k`), so each layer contracts the
  LAST axis of its weights. Every array entry of a layer's output depends on ONE row of the input only:
  that is what lets a row tile of the output be computed from the same row tile of the input.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The variance offset: the binary32 word both programs add to the variance, read as the real it denotes. -/
def eps : EReal := Ideal.ofBits .f32 0x3727C5AC#32

/-- One normalised entry: centre, scale by the reciprocal root of the offset variance, then the affine map. -/
def norm (x g β mean var : EReal) : EReal := ((x - mean) * Ideal.rsqrt (var + eps)) * g + β

/-- Entry `j` of the hidden layer of one row: the first linear map with bias, clipped below at zero. -/
def hidden {D H : ℕ} (x g β mean var : Fin D → EReal) (w1 : Fin H → Fin D → EReal) (b1 : Fin H → EReal) (j : Fin H) : EReal :=
  max ((∑ k : Fin D, norm (x k) (g k) (β k) (mean k) (var k) * w1 j k) + b1 j) 0

/-- Entry `q` of the network's output on one row. -/
def row {D H O : ℕ} (x g β mean var : Fin D → EReal) (w1 : Fin H → Fin D → EReal) (b1 : Fin H → EReal)
    (w2 : Fin O → Fin H → EReal) (b2 : Fin O → EReal) (q : Fin O) : EReal :=
  (∑ j : Fin H, hidden x g β mean var w1 b1 j * w2 q j) + b2 q

/-- An `[r, c]` array of extended reals. -/
abbrev Arr (r c : ℕ) : Type := (⟨2, ![r, c]⟩ : Shape).Idx → EReal

/-- The network applied to every row of an `[R, D]` array; the statistics and biases come as `[1, ·]` rows. -/
def apply {R D H O : ℕ} (x : Arr R D) (g β mean var : Arr 1 D) (w1 : Arr H D) (b1 : Arr 1 H) (w2 : Arr O H) (b2 : Arr 1 O) :
    Arr R O := fun i =>
  row (fun k => x (ix2 (i 0 : Fin R) k)) (fun k => g (ix2 (0 : Fin 1) k)) (fun k => β (ix2 (0 : Fin 1) k))
    (fun k => mean (ix2 (0 : Fin 1) k)) (fun k => var (ix2 (0 : Fin 1) k)) (fun j k => w1 (ix2 j k))
    (fun j => b1 (ix2 (0 : Fin 1) j)) (fun l j => w2 (ix2 l j)) (fun l => b2 (ix2 (0 : Fin 1) l)) (i 1 : Fin O)

/-- At the index `(p, q)` the network's output is row `p`'s output entry `q`. -/
theorem apply_ix2 {R D H O : ℕ} (x : Arr R D) (g β mean var : Arr 1 D) (w1 : Arr H D) (b1 : Arr 1 H) (w2 : Arr O H) (b2 : Arr 1 O)
    (p : Fin R) (q : Fin O) :
    apply x g β mean var w1 b1 w2 b2 (ix2 p q) =
      row (fun k => x (ix2 p k)) (fun k => g (ix2 (0 : Fin 1) k)) (fun k => β (ix2 (0 : Fin 1) k))
        (fun k => mean (ix2 (0 : Fin 1) k)) (fun k => var (ix2 (0 : Fin 1) k)) (fun j k => w1 (ix2 j k))
        (fun j => b1 (ix2 (0 : Fin 1) j)) (fun l j => w2 (ix2 l j)) (fun l => b2 (ix2 (0 : Fin 1) l)) q := rfl

end Cert.Mlp

end
-- ==== Proof.TokenTile.lean ====
/-
  Region 0's body at one entry. The body loads a `[4000, 128]` tile of tokens, the four `[1, 128]` statistics rows,
  both weight matrices and both bias rows, and stores a `[4000, 256]` tile. Read at the entry `(p, q)` of that tile, at
  `Ideal`, the stored value is the network's output entry `q` on row `p` of the token tile: the broadcasts of a
  `[1, ·]` row read its one row, the format changes are the identity, and each matrix product into a zero
  accumulator is the sum over the shared last axis.
-/
import proofs.«136699_j62002147885262_1_alg».proof.Proof.Gen.KernelIdeal.Skeleton
import proofs.«136699_j62002147885262_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tokens

open Cert.KernelIdeal Cert.KernelIdeal.Gen Idealize.ShloMosaic Idealize.ShloMosaic.ValueIdx

/-! ### `dot_S4000x128_S256x128_S4000x256_1_1_0_0_n_n`: rows of an `[4000, 128]` block against rows of an `[256, 128]` matrix -/

theorem first_lhs0 (i : S4000x256.Idx) (q : dot_S4000x128_S256x128_S4000x256_1_1_0_0_n_n.contr.Idx) : (dot_S4000x128_S256x128_S4000x256_1_1_0_0_n_n.lhsIdx i q 0).val = (i 0).val := by
  unfold DotDims.lhsIdx
  rw [dif_neg (show ¬(0 : Fin S4000x128.rank) ∈ dot_S4000x128_S256x128_S4000x256_1_1_0_0_n_n.lhsBatch by decide), dif_pos (show (0 : Fin S4000x128.rank) ∈ dot_S4000x128_S256x128_S4000x256_1_1_0_0_n_n.lhsNonContracting by decide)]
  rfl
theorem first_lhs1 (i : S4000x256.Idx) (q : dot_S4000x128_S256x128_S4000x256_1_1_0_0_n_n.contr.Idx) : (dot_S4000x128_S256x128_S4000x256_1_1_0_0_n_n.lhsIdx i q 1).val = (q ⟨0, by decide⟩).val :=
  dot_S4000x128_S256x128_S4000x256_1_1_0_0_n_n.lhsIdx_val_of_single rfl i q
theorem first_rhs0 (i : S4000x256.Idx) (q : dot_S4000x128_S256x128_S4000x256_1_1_0_0_n_n.contr.Idx) : (dot_S4000x128_S256x128_S4000x256_1_1_0_0_n_n.rhsIdx i q 0).val = (i 1).val := by
  unfold DotDims.rhsIdx
  rw [dif_neg (show ¬(0 : Fin S256x128.rank) ∈ dot_S4000x128_S256x128_S4000x256_1_1_0_0_n_n.rhsBatch by decide), dif_pos (show (0 : Fin S256x128.rank) ∈ dot_S4000x128_S256x128_S4000x256_1_1_0_0_n_n.rhsNonContracting by decide)]
  rfl
theorem first_rhs1 (i : S4000x256.Idx) (q : dot_S4000x128_S256x128_S4000x256_1_1_0_0_n_n.contr.Idx) : (dot_S4000x128_S256x128_S4000x256_1_1_0_0_n_n.rhsIdx i q 1).val = (q ⟨0, by decide⟩).val :=
  dot_S4000x128_S256x128_S4000x256_1_1_0_0_n_n.rhsIdx_val_of_single rfl i q

/-- Into a zero accumulator the product's entry `(p, q)` is the plain sum, over the shared last axis, of row `p` of
    the left operand against row `q` of the right one: no rounding and no order of summation is left at `Ideal`. -/
theorem first_apply {φ₁ φ₂ : FTy} (l : FVec Ideal S4000x128 φ₁) (r : FVec Ideal S256x128 φ₂) (p : Fin 4000) (q : Fin 256) :
    matmul dot_S4000x128_S256x128_S4000x256_1_1_0_0_n_n none l r (constant S4000x256 .f32 0x00000000#32) (ix2 p q) = ∑ k : Fin 128, l (ix2 p k) * r (ix2 q k) := by
  simp only [matmul]
  rw [Ideal.matmul_constant_zero_apply, ← Equiv.sum_comp (ValueIdx.contrEquiv1 dot_S4000x128_S256x128_S4000x256_1_1_0_0_n_n 128 rfl rfl).symm]
  refine Finset.sum_congr rfl fun k _ => ?_
  have hk := ValueIdx.contrEquiv1_symm_val dot_S4000x128_S256x128_S4000x256_1_1_0_0_n_n 128 rfl rfl k
  have el : dot_S4000x128_S256x128_S4000x256_1_1_0_0_n_n.lhsIdx (ix2 p q) ((ValueIdx.contrEquiv1 dot_S4000x128_S256x128_S4000x256_1_1_0_0_n_n 128 rfl rfl).symm k) = ix2 p k := funext fun a => Fin.ext (by
    match a with
    | ⟨0, _⟩ => exact first_lhs0 _ _
    | ⟨1, _⟩ => exact (first_lhs1 _ _).trans hk)
  have er : dot_S4000x128_S256x128_S4000x256_1_1_0_0_n_n.rhsIdx (ix2 p q) ((ValueIdx.contrEquiv1 dot_S4000x128_S256x128_S4000x256_1_1_0_0_n_n 128 rfl rfl).symm k) = ix2 q k := funext fun a => Fin.ext (by
    match a with
    | ⟨0, _⟩ => exact first_rhs0 _ _
    | ⟨1, _⟩ => exact (first_rhs1 _ _).trans hk)
  rw [el, er]

/-! ### `dot_S4000x256_S256x256_S4000x256_1_1_0_0_n_n`: rows of an `[4000, 256]` block against rows of an `[256, 256]` matrix -/

theorem second_lhs0 (i : S4000x256.Idx) (q : dot_S4000x256_S256x256_S4000x256_1_1_0_0_n_n.contr.Idx) : (dot_S4000x256_S256x256_S4000x256_1_1_0_0_n_n.lhsIdx i q 0).val = (i 0).val := by
  unfold DotDims.lhsIdx
  rw [dif_neg (show ¬(0 : Fin S4000x256.rank) ∈ dot_S4000x256_S256x256_S4000x256_1_1_0_0_n_n.lhsBatch by decide), dif_pos (show (0 : Fin S4000x256.rank) ∈ dot_S4000x256_S256x256_S4000x256_1_1_0_0_n_n.lhsNonContracting by decide)]
  rfl
theorem second_lhs1 (i : S4000x256.Idx) (q : dot_S4000x256_S256x256_S4000x256_1_1_0_0_n_n.contr.Idx) : (dot_S4000x256_S256x256_S4000x256_1_1_0_0_n_n.lhsIdx i q 1).val = (q ⟨0, by decide⟩).val :=
  dot_S4000x256_S256x256_S4000x256_1_1_0_0_n_n.lhsIdx_val_of_single rfl i q
theorem second_rhs0 (i : S4000x256.Idx) (q : dot_S4000x256_S256x256_S4000x256_1_1_0_0_n_n.contr.Idx) : (dot_S4000x256_S256x256_S4000x256_1_1_0_0_n_n.rhsIdx i q 0).val = (i 1).val := by
  unfold DotDims.rhsIdx
  rw [dif_neg (show ¬(0 : Fin S256x256.rank) ∈ dot_S4000x256_S256x256_S4000x256_1_1_0_0_n_n.rhsBatch by decide), dif_pos (show (0 : Fin S256x256.rank) ∈ dot_S4000x256_S256x256_S4000x256_1_1_0_0_n_n.rhsNonContracting by decide)]
  rfl
theorem second_rhs1 (i : S4000x256.Idx) (q : dot_S4000x256_S256x256_S4000x256_1_1_0_0_n_n.contr.Idx) : (dot_S4000x256_S256x256_S4000x256_1_1_0_0_n_n.rhsIdx i q 1).val = (q ⟨0, by decide⟩).val :=
  dot_S4000x256_S256x256_S4000x256_1_1_0_0_n_n.rhsIdx_val_of_single rfl i q

/-- Into a zero accumulator the product's entry `(p, q)` is the plain sum, over the shared last axis, of row `p` of
    the left operand against row `q` of the right one: no rounding and no order of summation is left at `Ideal`. -/
theorem second_apply {φ₁ φ₂ : FTy} (l : FVec Ideal S4000x256 φ₁) (r : FVec Ideal S256x256 φ₂) (p : Fin 4000) (q : Fin 256) :
    matmul dot_S4000x256_S256x256_S4000x256_1_1_0_0_n_n none l r (constant S4000x256 .f32 0x00000000#32) (ix2 p q) = ∑ k : Fin 256, l (ix2 p k) * r (ix2 q k) := by
  simp only [matmul]
  rw [Ideal.matmul_constant_zero_apply, ← Equiv.sum_comp (ValueIdx.contrEquiv1 dot_S4000x256_S256x256_S4000x256_1_1_0_0_n_n 256 rfl rfl).symm]
  refine Finset.sum_congr rfl fun k _ => ?_
  have hk := ValueIdx.contrEquiv1_symm_val dot_S4000x256_S256x256_S4000x256_1_1_0_0_n_n 256 rfl rfl k
  have el : dot_S4000x256_S256x256_S4000x256_1_1_0_0_n_n.lhsIdx (ix2 p q) ((ValueIdx.contrEquiv1 dot_S4000x256_S256x256_S4000x256_1_1_0_0_n_n 256 rfl rfl).symm k) = ix2 p k := funext fun a => Fin.ext (by
    match a with
    | ⟨0, _⟩ => exact second_lhs0 _ _
    | ⟨1, _⟩ => exact (second_lhs1 _ _).trans hk)
  have er : dot_S4000x256_S256x256_S4000x256_1_1_0_0_n_n.rhsIdx (ix2 p q) ((ValueIdx.contrEquiv1 dot_S4000x256_S256x256_S4000x256_1_1_0_0_n_n 256 rfl rfl).symm k) = ix2 q k := funext fun a => Fin.ext (by
    match a with
    | ⟨0, _⟩ => exact second_rhs0 _ _
    | ⟨1, _⟩ => exact (second_rhs1 _ _).trans hk)
  rw [el, er]

/-- The stored tile at `(p, q)`. -/
theorem stored_apply (x0 : Vec Ideal S4000x128 .f32) (x1 x2 x3 x4 : Vec Ideal S1x128 .f32) (x5 : Vec Ideal S256x128 .f32)
    (x6 : Vec Ideal S1x256 .f32) (x7 : Vec Ideal S256x256 .f32) (x8 : Vec Ideal S1x256 .f32) (p : Fin 4000) (q : Fin 256) :
    k0_pay1 (k0_pay2 x0 x1 x2 x3 x4 x5 x6 x7) (k0_pay3 x8) (ix2 p q)
      = Cert.Mlp.row (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun j k => x5 (ix2 j k))
          (fun j => x6 (ix2 (0 : Fin 1) j)) (fun l j => x7 (ix2 l j)) (fun l => x8 (ix2 (0 : Fin 1) l)) q := by
  dsimp only [k0_pay1, k0_pay2, k0_pay3]
  simp only [shapeCast_self]
  rw [addf_apply, second_apply, broadcastTo_1b_ab_apply]
  unfold Cert.Mlp.row
  refine congrArg (· + x8 (ix2 (0 : Fin 1) q)) (Finset.sum_congr rfl fun j _ => ?_)
  rw [truncf_apply, truncf_apply, maximumf_apply, addf_apply, first_apply, broadcastTo_1b_ab_apply, broadcast_apply]
  unfold Cert.Mlp.hidden
  refine congrArg (· * x7 (ix2 q j)) ?_
  refine congrArg₂ max (congrArg (· + x6 (ix2 (0 : Fin 1) j)) (Finset.sum_congr rfl fun k _ => ?_)) Ideal.ofBits_zero_f32
  rw [truncf_apply, truncf_apply, addf_apply, mulf_apply, mulf_apply, subf_apply, broadcastTo_1b_ab_apply,
    broadcastTo_1b_ab_apply, broadcastTo_1b_ab_apply, broadcastTo_1b_ab_apply]
  rfl

end Cert.KernelIdeal.Tokens

end
-- ==== Proof.TokenArray.lean ====
/-
  Region 0 over its whole grid. Point `t` of the 125 loads rows `4000 t … 4000 t + 3999` of the token array and writes
  the same rows of the `[500000, 256]` output; every other operand is fetched whole. Because an output row depends
  on its own input row only, what point `t` writes is the restriction to its row tile of ONE whole-array function, the
  network on every row; the 125 tiles cover the array, so that function is what the array holds after the region.
-/
import proofs.«136699_j62002147885262_1_alg».proof.Proof.Gen.KernelIdeal.Frame
import proofs.«136699_j62002147885262_1_alg».proof.Proof.TokenTile

set_option maxRecDepth 16384

noncomputable section

namespace Cert.KernelIdeal.Tokens

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output array the region leaves: the network on every row of the row array, with the statistics, weights and
    biases as the region finds them. -/
def whole (c : Dev nD) : S500000x256.Idx → EReal :=
  Cert.Mlp.apply (R := 500000) (D := 128) (H := 256) (O := 256) (V c main_arg0) (V c main_v0) (V c main_v1) (V c main_v2) (V c main_v3)
    (V c main_arg8) (V c main_v4) (V c main_arg10) (V c main_v5)

theorem origin : (![0, 0] : Fin 2 → Nat) = fun _ => 0 := funext fun a => by fin_cases a <;> rfl

/-- The printed index maps over the grid: the row window and the output window sit at the same row block, in column
    block 0; every other window is its whole array at every point; the row block stays below the grid size. -/
theorem idx_facts : ∀ t : Fin cfg0.N, win0_0.index t (0 : Fin 2) = win0_9.index t (0 : Fin 2)
    ∧ win0_0.index t (1 : Fin 2) = 0 ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 124 :=
  (by decide +kernel : ∀ t : Fin grid0.N, _)

/-- Every row block is some point's. -/
theorem idx_onto : ∀ (q0 : Fin 125), ∃ t : Fin cfg0.N, win0_9.index t (0 : Fin 2) = q0.val :=
  (by decide +kernel : ∀ (q0 : Fin 125), ∃ t : Fin grid0.N, win0_9.index t (0 : Fin 2) = q0.val)

/-! ### A window that is its whole array at every point -/

theorem block1 (c : Dev nD) (t : Fin cfg0.N) : iblk0 V c 1 t = V c main_v0 := by
  have e := idx_facts t
  funext y
  show V c main_v0 (((cfg0.win 1).blk t).view.emb y) = V c main_v0 y
  refine congrArg _ (funext fun a => Fin.ext ?_)
  match a with
  | ⟨0, _⟩ => show win0_1.index t (0 : Fin 2) * 1 + 1 * (y 0).val = (y 0).val; have := e.2.2.2.1; omega
  | ⟨1, _⟩ => show win0_1.index t (1 : Fin 2) * 128 + 1 * (y 1).val = (y 1).val; have := e.2.2.2.2.1; omega

theorem block2 (c : Dev nD) (t : Fin cfg0.N) : iblk0 V c 2 t = V c main_v1 := by
  have e := idx_facts t
  funext y
  show V c main_v1 (((cfg0.win 2).blk t).view.emb y) = V c main_v1 y
  refine congrArg _ (funext fun a => Fin.ext ?_)
  match a with
  | ⟨0, _⟩ => show win0_2.index t (0 : Fin 2) * 1 + 1 * (y 0).val = (y 0).val; have := e.2.2.2.2.2.1; omega
  | ⟨1, _⟩ => show win0_2.index t (1 : Fin 2) * 128 + 1 * (y 1).val = (y 1).val; have := e.2.2.2.2.2.2.1; omega

theorem block3 (c : Dev nD) (t : Fin cfg0.N) : iblk0 V c 3 t = V c main_v2 := by
  have e := idx_facts t
  funext y
  show V c main_v2 (((cfg0.win 3).blk t).view.emb y) = V c main_v2 y
  refine congrArg _ (funext fun a => Fin.ext ?_)
  match a with
  | ⟨0, _⟩ => show win0_3.index t (0 : Fin 2) * 1 + 1 * (y 0).val = (y 0).val; have := e.2.2.2.2.2.2.2.1; omega
  | ⟨1, _⟩ => show win0_3.index t (1 : Fin 2) * 128 + 1 * (y 1).val = (y 1).val; have := e.2.2.2.2.2.2.2.2.1; omega

theorem block4 (c : Dev nD) (t : Fin cfg0.N) : iblk0 V c 4 t = V c main_v3 := by
  have e := idx_facts t
  funext y
  show V c main_v3 (((cfg0.win 4).blk t).view.emb y) = V c main_v3 y
  refine congrArg _ (funext fun a => Fin.ext ?_)
  match a with
  | ⟨0, _⟩ => show win0_4.index t (0 : Fin 2) * 1 + 1 * (y 0).val = (y 0).val; have := e.2.2.2.2.2.2.2.2.2.1; omega
  | ⟨1, _⟩ => show win0_4.index t (1 : Fin 2) * 128 + 1 * (y 1).val = (y 1).val; have := e.2.2.2.2.2.2.2.2.2.2.1; omega

theorem block5 (c : Dev nD) (t : Fin cfg0.N) : iblk0 V c 5 t = V c main_arg8 := by
  have e := idx_facts t
  funext y
  show V c main_arg8 (((cfg0.win 5).blk t).view.emb y) = V c main_arg8 y
  refine congrArg _ (funext fun a => Fin.ext ?_)
  match a with
  | ⟨0, _⟩ => show win0_5.index t (0 : Fin 2) * 256 + 1 * (y 0).val = (y 0).val; have := e.2.2.2.2.2.2.2.2.2.2.2.1; omega
  | ⟨1, _⟩ => show win0_5.index t (1 : Fin 2) * 128 + 1 * (y 1).val = (y 1).val; have := e.2.2.2.2.2.2.2.2.2.2.2.2.1; omega

theorem block6 (c : Dev nD) (t : Fin cfg0.N) : iblk0 V c 6 t = V c main_v4 := by
  have e := idx_facts t
  funext y
  show V c main_v4 (((cfg0.win 6).blk t).view.emb y) = V c main_v4 y
  refine congrArg _ (funext fun a => Fin.ext ?_)
  match a with
  | ⟨0, _⟩ => show win0_6.index t (0 : Fin 2) * 1 + 1 * (y 0).val = (y 0).val; have := e.2.2.2.2.2.2.2.2.2.2.2.2.2.1; omega
  | ⟨1, _⟩ => show win0_6.index t (1 : Fin 2) * 256 + 1 * (y 1).val = (y 1).val; have := e.2.2.2.2.2.2.2.2.2.2.2.2.2.2.1; omega

theorem block7 (c : Dev nD) (t : Fin cfg0.N) : iblk0 V c 7 t = V c main_arg10 := by
  have e := idx_facts t
  funext y
  show V c main_arg10 (((cfg0.win 7).blk t).view.emb y) = V c main_arg10 y
  refine congrArg _ (funext fun a => Fin.ext ?_)
  match a with
  | ⟨0, _⟩ => show win0_7.index t (0 : Fin 2) * 256 + 1 * (y 0).val = (y 0).val; have := e.2.2.2.2.2.2.2.2.2.2.2.2.2.2.2.1; omega
  | ⟨1, _⟩ => show win0_7.index t (1 : Fin 2) * 256 + 1 * (y 1).val = (y 1).val; have := e.2.2.2.2.2.2.2.2.2.2.2.2.2.2.2.2.1; omega

theorem block8 (c : Dev nD) (t : Fin cfg0.N) : iblk0 V c 8 t = V c main_v5 := by
  have e := idx_facts t
  funext y
  show V c main_v5 (((cfg0.win 8).blk t).view.emb y) = V c main_v5 y
  refine congrArg _ (funext fun a => Fin.ext ?_)
  match a with
  | ⟨0, _⟩ => show win0_8.index t (0 : Fin 2) * 1 + 1 * (y 0).val = (y 0).val; have := e.2.2.2.2.2.2.2.2.2.2.2.2.2.2.2.2.2.1; omega
  | ⟨1, _⟩ => show win0_8.index t (1 : Fin 2) * 256 + 1 * (y 1).val = (y 1).val; have := e.2.2.2.2.2.2.2.2.2.2.2.2.2.2.2.2.2.2.1; omega

/-- One stored entry, over plain variables: if row `j 0` of the loaded tile is row `i 0` of the array and the columns
    agree, the stored entry `j` is the whole-array network's entry `i`. -/
theorem entry_eq (X : S500000x128.Idx → EReal) (x0 : Vec Ideal S4000x128 .f32) (x1 x2 x3 x4 : Vec Ideal S1x128 .f32) (x5 : Vec Ideal S256x128 .f32)
    (x6 : Vec Ideal S1x256 .f32) (x7 : Vec Ideal S256x256 .f32) (x8 : Vec Ideal S1x256 .f32) (j : S4000x256.Idx) (i : S500000x256.Idx)
    (hrow : ∀ k : Fin 128, x0 (ix2 (j 0 : Fin 4000) k) = X (ix2 (i 0 : Fin 500000) k)) (hcol : (j 1).val = (i 1).val) :
    k0_pay1 (k0_pay2 x0 x1 x2 x3 x4 x5 x6 x7) (k0_pay3 x8) j
      = Cert.Mlp.apply (R := 500000) (D := 128) (H := 256) (O := 256) X x1 x2 x3 x4 x5 x6 x7 x8 i := by
  obtain ⟨p, q, rfl⟩ : ∃ (p : Fin 4000) (q : Fin 256), j = ix2 p q := ⟨j 0, j 1, eq_ix2 j⟩
  obtain ⟨r, s, rfl⟩ : ∃ (r : Fin 500000) (s : Fin 256), i = ix2 r s := ⟨i 0, i 1, eq_ix2 i⟩
  have hqs : q = s := Fin.ext hcol
  subst hqs
  rw [Cert.KernelIdeal.Tokens.stored_apply, Cert.Mlp.apply_ix2]
  exact congrArg (fun f => Cert.Mlp.row f _ _ _ _ _ _ _ _ q) (funext hrow)

/-- WHAT POINT `t` WRITES BACK is block `t` of the whole-array network. -/
theorem flushed_eq (c : Dev nD) (t : Fin cfg0.N) :
    (dat0 V c).flushed 9 t = ((cfg0.win 9).blk t).view.read (Elt Ideal) (whole V c) := by
  show (cfg0.win 9).cut (grid0.coords t) ((dat0 V c).after 9 t) = _
  rw [after0_9]
  unfold out0_9
  rw [View.canon_unit_zero origin]
  simp only [View.ld_unit_zero (S := S4000x128) origin, View.ld_unit_zero (S := S1x128) origin, View.ld_unit_zero (S := S256x128) origin, View.ld_unit_zero (S := S1x256) origin, View.ld_unit_zero (S := S256x256) origin]
  rw [block1 V c t, block2 V c t, block3 V c t, block4 V c t, block5 V c t, block6 V c t, block7 V c t, block8 V c t]
  have e := idx_facts t
  funext j
  refine entry_eq (V c main_arg0) (iblk0 V c 0 t) _ _ _ _ _ _ _ _ j (((cfg0.win 9).blk t).view.emb j) (fun k => ?_) ?_
  · show V c main_arg0 (((cfg0.win 0).blk t).view.emb (ix2 (j 0) k)) = V c main_arg0 (ix2 ((((cfg0.win 9).blk t).view.emb j) 0) k)
    refine congrArg _ (funext fun a => Fin.ext ?_)
    match a with
    | ⟨0, _⟩ => show win0_0.index t (0 : Fin 2) * 4000 + 1 * (j 0).val = win0_9.index t (0 : Fin 2) * 4000 + 1 * (j 0).val; have := e.1; omega
    | ⟨1, _⟩ => show win0_0.index t (1 : Fin 2) * 128 + 1 * k.val = k.val; have := e.2.1; omega
  · show (j 1).val = win0_9.index t (1 : Fin 2) * 256 + 1 * (j 1).val
    have := e.2.2.1; omega

/-- An index of the array is in point `t`'s block iff each coordinate is in the block's range on its axis. -/
theorem mem_blk (t : Fin cfg0.N) (i : S500000x256.Idx) :
    i ∈ ((cfg0.win 9).blk t).view.set ↔ ∀ a : Fin 2, win0_9.index t a * S4000x256.size a ≤ (i a).val ∧ (i a).val < win0_9.index t a * S4000x256.size a + S4000x256.size a := by
  show i ∈ ((View.whole main_v6).slice (win0_9.rect t)).set ↔ _
  rw [View.set_slice_whole, Rect.mem_set_unit]
  exact Iff.rfl

/-- The row tiles cover the array: row `r` is in the tile of point `r / 4000`. -/
theorem cover (i : S500000x256.Idx) : ∃ t : Fin cfg0.N, (cfg0.win 9).flush t = true ∧ i ∈ ((cfg0.win 9).blk t).view.set := by
  have hi0 : (i 0).val < 500000 := (i 0).isLt
  have hi1 : (i 1).val < 256 := (i 1).isLt
  obtain ⟨t, ht⟩ := idx_onto ⟨(i 0).val / 4000, by omega⟩
  have ht' : win0_9.index t (0 : Fin 2) = (i 0).val / 4000 := ht
  have e := idx_facts t
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 256 ≤ (i 1).val ∧ (i 1).val < win0_9.index t (1 : Fin 2) * 256 + 256; have := e.2.2.1; omega

/-- THE ARRAY after the region: the network on every row. -/
theorem final (c : Dev nD) : (dat0 V c).arrAt 9 cfg0.N = whole V c :=
  (dat0 V c).arrAt_eq_of_cover 9 (whole V c) (fun t _ => flushed_eq V c t) (cover)

end Cert.KernelIdeal.Tokens

end
-- ==== Proof.NodeTile.lean ====
/-
  Region 1's body at one entry: the same network on a `[5000, 128]` tile of node rows, with `[128, 128]` weights
  in both layers. Read at `(p, q)` of the stored `[5000, 128]` tile, at `Ideal`, the value is the network's output
  entry `q` on row `p` of the node tile.
-/
import proofs.«136699_j62002147885262_1_alg».proof.Proof.Gen.KernelIdeal.Skeleton
import proofs.«136699_j62002147885262_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Nodes

open Cert.KernelIdeal Cert.KernelIdeal.Gen Idealize.ShloMosaic Idealize.ShloMosaic.ValueIdx

/-! ### `dot_S5000x128_S128x128_S5000x128_1_1_0_0_n_n`: rows of an `[5000, 128]` block against rows of an `[128, 128]` matrix -/

theorem layer_lhs0 (i : S5000x128.Idx) (q : dot_S5000x128_S128x128_S5000x128_1_1_0_0_n_n.contr.Idx) : (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem layer_lhs1 (i : S5000x128.Idx) (q : dot_S5000x128_S128x128_S5000x128_1_1_0_0_n_n.contr.Idx) : (dot_S5000x128_S128x128_S5000x128_1_1_0_0_n_n.lhsIdx i q 1).val = (q ⟨0, by decide⟩).val :=
  dot_S5000x128_S128x128_S5000x128_1_1_0_0_n_n.lhsIdx_val_of_single rfl i q
theorem layer_rhs0 (i : S5000x128.Idx) (q : dot_S5000x128_S128x128_S5000x128_1_1_0_0_n_n.contr.Idx) : (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem layer_rhs1 (i : S5000x128.Idx) (q : dot_S5000x128_S128x128_S5000x128_1_1_0_0_n_n.contr.Idx) : (dot_S5000x128_S128x128_S5000x128_1_1_0_0_n_n.rhsIdx i q 1).val = (q ⟨0, by decide⟩).val :=
  dot_S5000x128_S128x128_S5000x128_1_1_0_0_n_n.rhsIdx_val_of_single rfl i q

/-- Into a zero accumulator the product's entry `(p, q)` is the plain sum, over the shared last axis, of row `p` of
    the left operand against row `q` of the right one: no rounding and no order of summation is left at `Ideal`. -/
theorem layer_apply {φ₁ φ₂ : FTy} (l : FVec Ideal S5000x128 φ₁) (r : FVec Ideal S128x128 φ₂) (p : Fin 5000) (q : Fin 128) :
    matmul dot_S5000x128_S128x128_S5000x128_1_1_0_0_n_n none l r (constant S5000x128 .f32 0x00000000#32) (ix2 p q) = ∑ k : Fin 128, l (ix2 p k) * r (ix2 q k) := by
  simp only [matmul]
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun a => Fin.ext (by
    match a with
    | ⟨0, _⟩ => exact layer_lhs0 _ _
    | ⟨1, _⟩ => exact (layer_lhs1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun a => Fin.ext (by
    match a with
    | ⟨0, _⟩ => exact layer_rhs0 _ _
    | ⟨1, _⟩ => exact (layer_rhs1 _ _).trans hk)
  rw [el, er]

/-- The stored tile at `(p, q)`. -/
theorem stored_apply (x0 : Vec Ideal S5000x128 .f32) (x1 x2 x3 x4 : Vec Ideal S1x128 .f32) (x5 : Vec Ideal S128x128 .f32)
    (x6 : Vec Ideal S1x128 .f32) (x7 : Vec Ideal S128x128 .f32) (x8 : Vec Ideal S1x128 .f32) (p : Fin 5000) (q : Fin 128) :
    k1_pay1 (k1_pay2 x8) (k1_pay3 x0 x1 x2 x3 x4 x5 x6 x7) (ix2 p q)
      = Cert.Mlp.row (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun j k => x5 (ix2 j k))
          (fun j => x6 (ix2 (0 : Fin 1) j)) (fun l j => x7 (ix2 l j)) (fun l => x8 (ix2 (0 : Fin 1) l)) q := by
  dsimp only [k1_pay1, k1_pay2, k1_pay3]
  simp only [shapeCast_self]
  rw [addf_apply, layer_apply, broadcastTo_1b_ab_apply]
  unfold Cert.Mlp.row
  refine congrArg (· + x8 (ix2 (0 : Fin 1) q)) (Finset.sum_congr rfl fun j _ => ?_)
  rw [truncf_apply, truncf_apply, maximumf_apply, addf_apply, layer_apply, broadcastTo_1b_ab_apply, broadcast_apply]
  unfold Cert.Mlp.hidden
  refine congrArg (· * x7 (ix2 q j)) ?_
  refine congrArg₂ max (congrArg (· + x6 (ix2 (0 : Fin 1) j)) (Finset.sum_congr rfl fun k _ => ?_)) Ideal.ofBits_zero_f32
  rw [truncf_apply, truncf_apply, addf_apply, mulf_apply, mulf_apply, subf_apply, broadcastTo_1b_ab_apply,
    broadcastTo_1b_ab_apply, broadcastTo_1b_ab_apply, broadcastTo_1b_ab_apply]
  rfl

end Cert.KernelIdeal.Nodes

end
-- ==== Proof.NodeArray.lean ====
/-
  Region 1 over its whole grid. Point `t` of the 20 loads rows `5000 t … 5000 t + 4999` of the aggregated node array
  and writes the same rows of the `[100000, 128]` result; every other operand is fetched whole. As in region 0 the
  tiles are restrictions of one whole-array function, the network on every row, and they cover the array.
-/
import proofs.«136699_j62002147885262_1_alg».proof.Proof.Gen.KernelIdeal.Frame
import proofs.«136699_j62002147885262_1_alg».proof.Proof.NodeTile

set_option maxRecDepth 16384

noncomputable section

namespace Cert.KernelIdeal.Nodes

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output array the region leaves: the network on every row of the row array, with the statistics, weights and
    biases as the region finds them. -/
def whole (c : Dev nD) : S100000x128.Idx → EReal :=
  Cert.Mlp.apply (R := 100000) (D := 128) (H := 128) (O := 128) (V c main_v19) (V c main_v20) (V c main_v21) (V c main_v22) (V c main_v23)
    (V c main_arg16) (V c main_v24) (V c main_arg18) (V c main_v25)

theorem origin : (![0, 0] : Fin 2 → Nat) = fun _ => 0 := funext fun a => by fin_cases a <;> rfl

/-- The printed index maps over the grid: the row window and the output window sit at the same row block, in column
    block 0; every other window is its whole array at every point; the row block stays below the grid size. -/
theorem idx_facts : ∀ t : Fin cfg1.N, win1_0.index t (0 : Fin 2) = win1_9.index t (0 : Fin 2)
    ∧ win1_0.index t (1 : Fin 2) = 0 ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 19 :=
  (by decide +kernel : ∀ t : Fin grid1.N, _)

/-- Every row block is some point's. -/
theorem idx_onto : ∀ (q0 : Fin 20), ∃ t : Fin cfg1.N, win1_9.index t (0 : Fin 2) = q0.val :=
  (by decide +kernel : ∀ (q0 : Fin 20), ∃ t : Fin grid1.N, win1_9.index t (0 : Fin 2) = q0.val)

/-! ### A window that is its whole array at every point -/

theorem block1 (c : Dev nD) (t : Fin cfg1.N) : iblk1 V c 1 t = V c main_v20 := by
  have e := idx_facts t
  funext y
  show V c main_v20 (((cfg1.win 1).blk t).view.emb y) = V c main_v20 y
  refine congrArg _ (funext fun a => Fin.ext ?_)
  match a with
  | ⟨0, _⟩ => show win1_1.index t (0 : Fin 2) * 1 + 1 * (y 0).val = (y 0).val; have := e.2.2.2.1; omega
  | ⟨1, _⟩ => show win1_1.index t (1 : Fin 2) * 128 + 1 * (y 1).val = (y 1).val; have := e.2.2.2.2.1; omega

theorem block2 (c : Dev nD) (t : Fin cfg1.N) : iblk1 V c 2 t = V c main_v21 := by
  have e := idx_facts t
  funext y
  show V c main_v21 (((cfg1.win 2).blk t).view.emb y) = V c main_v21 y
  refine congrArg _ (funext fun a => Fin.ext ?_)
  match a with
  | ⟨0, _⟩ => show win1_2.index t (0 : Fin 2) * 1 + 1 * (y 0).val = (y 0).val; have := e.2.2.2.2.2.1; omega
  | ⟨1, _⟩ => show win1_2.index t (1 : Fin 2) * 128 + 1 * (y 1).val = (y 1).val; have := e.2.2.2.2.2.2.1; omega

theorem block3 (c : Dev nD) (t : Fin cfg1.N) : iblk1 V c 3 t = V c main_v22 := by
  have e := idx_facts t
  funext y
  show V c main_v22 (((cfg1.win 3).blk t).view.emb y) = V c main_v22 y
  refine congrArg _ (funext fun a => Fin.ext ?_)
  match a with
  | ⟨0, _⟩ => show win1_3.index t (0 : Fin 2) * 1 + 1 * (y 0).val = (y 0).val; have := e.2.2.2.2.2.2.2.1; omega
  | ⟨1, _⟩ => show win1_3.index t (1 : Fin 2) * 128 + 1 * (y 1).val = (y 1).val; have := e.2.2.2.2.2.2.2.2.1; omega

theorem block4 (c : Dev nD) (t : Fin cfg1.N) : iblk1 V c 4 t = V c main_v23 := by
  have e := idx_facts t
  funext y
  show V c main_v23 (((cfg1.win 4).blk t).view.emb y) = V c main_v23 y
  refine congrArg _ (funext fun a => Fin.ext ?_)
  match a with
  | ⟨0, _⟩ => show win1_4.index t (0 : Fin 2) * 1 + 1 * (y 0).val = (y 0).val; have := e.2.2.2.2.2.2.2.2.2.1; omega
  | ⟨1, _⟩ => show win1_4.index t (1 : Fin 2) * 128 + 1 * (y 1).val = (y 1).val; have := e.2.2.2.2.2.2.2.2.2.2.1; omega

theorem block5 (c : Dev nD) (t : Fin cfg1.N) : iblk1 V c 5 t = V c main_arg16 := by
  have e := idx_facts t
  funext y
  show V c main_arg16 (((cfg1.win 5).blk t).view.emb y) = V c main_arg16 y
  refine congrArg _ (funext fun a => Fin.ext ?_)
  match a with
  | ⟨0, _⟩ => show win1_5.index t (0 : Fin 2) * 128 + 1 * (y 0).val = (y 0).val; have := e.2.2.2.2.2.2.2.2.2.2.2.1; omega
  | ⟨1, _⟩ => show win1_5.index t (1 : Fin 2) * 128 + 1 * (y 1).val = (y 1).val; have := e.2.2.2.2.2.2.2.2.2.2.2.2.1; omega

theorem block6 (c : Dev nD) (t : Fin cfg1.N) : iblk1 V c 6 t = V c main_v24 := by
  have e := idx_facts t
  funext y
  show V c main_v24 (((cfg1.win 6).blk t).view.emb y) = V c main_v24 y
  refine congrArg _ (funext fun a => Fin.ext ?_)
  match a with
  | ⟨0, _⟩ => show win1_6.index t (0 : Fin 2) * 1 + 1 * (y 0).val = (y 0).val; have := e.2.2.2.2.2.2.2.2.2.2.2.2.2.1; omega
  | ⟨1, _⟩ => show win1_6.index t (1 : Fin 2) * 128 + 1 * (y 1).val = (y 1).val; have := e.2.2.2.2.2.2.2.2.2.2.2.2.2.2.1; omega

theorem block7 (c : Dev nD) (t : Fin cfg1.N) : iblk1 V c 7 t = V c main_arg18 := by
  have e := idx_facts t
  funext y
  show V c main_arg18 (((cfg1.win 7).blk t).view.emb y) = V c main_arg18 y
  refine congrArg _ (funext fun a => Fin.ext ?_)
  match a with
  | ⟨0, _⟩ => show win1_7.index t (0 : Fin 2) * 128 + 1 * (y 0).val = (y 0).val; have := e.2.2.2.2.2.2.2.2.2.2.2.2.2.2.2.1; omega
  | ⟨1, _⟩ => show win1_7.index t (1 : Fin 2) * 128 + 1 * (y 1).val = (y 1).val; have := e.2.2.2.2.2.2.2.2.2.2.2.2.2.2.2.2.1; omega

theorem block8 (c : Dev nD) (t : Fin cfg1.N) : iblk1 V c 8 t = V c main_v25 := by
  have e := idx_facts t
  funext y
  show V c main_v25 (((cfg1.win 8).blk t).view.emb y) = V c main_v25 y
  refine congrArg _ (funext fun a => Fin.ext ?_)
  match a with
  | ⟨0, _⟩ => show win1_8.index t (0 : Fin 2) * 1 + 1 * (y 0).val = (y 0).val; have := e.2.2.2.2.2.2.2.2.2.2.2.2.2.2.2.2.2.1; omega
  | ⟨1, _⟩ => show win1_8.index t (1 : Fin 2) * 128 + 1 * (y 1).val = (y 1).val; have := e.2.2.2.2.2.2.2.2.2.2.2.2.2.2.2.2.2.2.1; omega

/-- One stored entry, over plain variables: if row `j 0` of the loaded tile is row `i 0` of the array and the columns
    agree, the stored entry `j` is the whole-array network's entry `i`. -/
theorem entry_eq (X : S100000x128.Idx → EReal) (x0 : Vec Ideal S5000x128 .f32) (x1 x2 x3 x4 : Vec Ideal S1x128 .f32) (x5 : Vec Ideal S128x128 .f32)
    (x6 : Vec Ideal S1x128 .f32) (x7 : Vec Ideal S128x128 .f32) (x8 : Vec Ideal S1x128 .f32) (j : S5000x128.Idx) (i : S100000x128.Idx)
    (hrow : ∀ k : Fin 128, x0 (ix2 (j 0 : Fin 5000) k) = X (ix2 (i 0 : Fin 100000) k)) (hcol : (j 1).val = (i 1).val) :
    k1_pay1 (k1_pay2 x8) (k1_pay3 x0 x1 x2 x3 x4 x5 x6 x7) j
      = Cert.Mlp.apply (R := 100000) (D := 128) (H := 128) (O := 128) X x1 x2 x3 x4 x5 x6 x7 x8 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hqs : q = s := Fin.ext hcol
  subst hqs
  rw [Cert.KernelIdeal.Nodes.stored_apply, Cert.Mlp.apply_ix2]
  exact congrArg (fun f => Cert.Mlp.row f _ _ _ _ _ _ _ _ q) (funext hrow)

/-- WHAT POINT `t` WRITES BACK is block `t` of the whole-array network. -/
theorem flushed_eq (c : Dev nD) (t : Fin cfg1.N) :
    (dat1 V c).flushed 9 t = ((cfg1.win 9).blk t).view.read (Elt Ideal) (whole V c) := by
  show (cfg1.win 9).cut (grid1.coords t) ((dat1 V c).after 9 t) = _
  rw [after1_9]
  unfold out1_9
  rw [View.canon_unit_zero origin]
  simp only [View.ld_unit_zero (S := S5000x128) origin, View.ld_unit_zero (S := S1x128) origin, View.ld_unit_zero (S := S128x128) origin]
  rw [block1 V c t, block2 V c t, block3 V c t, block4 V c t, block5 V c t, block6 V c t, block7 V c t, block8 V c t]
  have e := idx_facts t
  funext j
  refine entry_eq (V c main_v19) (iblk1 V c 0 t) _ _ _ _ _ _ _ _ j (((cfg1.win 9).blk t).view.emb j) (fun k => ?_) ?_
  · show V c main_v19 (((cfg1.win 0).blk t).view.emb (ix2 (j 0) k)) = V c main_v19 (ix2 ((((cfg1.win 9).blk t).view.emb j) 0) k)
    refine congrArg _ (funext fun a => Fin.ext ?_)
    match a with
    | ⟨0, _⟩ => show win1_0.index t (0 : Fin 2) * 5000 + 1 * (j 0).val = win1_9.index t (0 : Fin 2) * 5000 + 1 * (j 0).val; have := e.1; omega
    | ⟨1, _⟩ => show win1_0.index t (1 : Fin 2) * 128 + 1 * k.val = k.val; have := e.2.1; omega
  · show (j 1).val = win1_9.index t (1 : Fin 2) * 128 + 1 * (j 1).val
    have := e.2.2.1; omega

/-- An index of the array is in point `t`'s block iff each coordinate is in the block's range on its axis. -/
theorem mem_blk (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v26).slice (win1_9.rect t)).set ↔ _
  rw [View.set_slice_whole, Rect.mem_set_unit]
  exact Iff.rfl

/-- The row tiles cover the array: row `r` is in the tile of point `r / 5000`. -/
theorem cover (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ := idx_onto ⟨(i 0).val / 5000, by omega⟩
  have ht' : win1_9.index t (0 : Fin 2) = (i 0).val / 5000 := ht
  have e := idx_facts t
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; have := e.2.2.1; omega

/-- THE ARRAY after the region: the network on every row. -/
theorem final (c : Dev nD) : (dat1 V c).arrAt 9 cfg1.N = whole V c :=
  (dat1 V c).arrAt_eq_of_cover 9 (whole V c) (fun t _ => flushed_eq V c t) (cover)

end Cert.KernelIdeal.Nodes

end
-- ==== Proof.Aggregate.lean ====
/-
  Between the two networks the program sums token rows into node rows. With `y` the `[500000, 256]` output of the
  first network and `idx` the `[2, 500000]` table of node numbers, node row `n` receives the left half `y[t, 0:128]` of
  every token `t` with `idx[0, t] = n` and the right half `y[t, 128:256]` of every token with `idx[1, t] = n`: two
  scatter-additions into zero arrays, added. Both programs state this with the same operations, so it is kept as ONE
  function and never opened. The whole program is then the second network on the aggregated rows.
-/
import proofs.«136699_j62002147885262_1_alg».proof.Proof.Gen.KernelIdeal
import proofs.«136699_j62002147885262_1_alg».proof.Proof.Mlp
import Idealize.ShloMosaic.Lib.ValueIdx

noncomputable section

namespace Cert.KernelIdeal.Whole

open Cert.KernelIdeal Cert.KernelIdeal.Facts₀ Cert.KernelIdeal.Facts Idealize.ShloMosaic Idealize.ShloMosaic.ValueIdx

/-- The two scatter-additions of the halves of `y` by the two rows of `idx`, added. -/
def aggregate (y : (⟨S500000x256, .f32⟩ : BufTy).Contents (Elt Ideal)) (idx : (⟨S2x500000, .i32⟩ : BufTy).Contents (Elt Ideal)) :
    (⟨S100000x128, .f32⟩ : BufTy).Contents (Elt Ideal) :=
  addf
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0
        (shapeCast S500000 (extractStridedSlice S1x500000 ![0, 0] idx slices_S2x500000_S1x500000_0_0) shapeCasts_S1x500000_S500000))
      (extractStridedSlice S500000x128 ![0, 0] y slices_S500000x256_S500000x128_0_0))
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0
        (shapeCast S500000 (extractStridedSlice S1x500000 ![1, 0] idx slices_S2x500000_S1x500000_1_0) shapeCasts_S1x500000_S500000))
      (extractStridedSlice S500000x128 ![0, 128] y slices_S500000x256_S500000x128_0_128))

/-- A length-`n` vector as the one row of a `[1, n]` array. -/
def asRow {n : ℕ} (v : (⟨1, ![n]⟩ : Shape).Idx → EReal) : Cert.Mlp.Arr 1 n := fun i => v (ix1 (i 1 : Fin n))

/-- The program's result as one function of its arguments: the token network, the aggregation, the node network. -/
def result (x0 : S500000x128.Idx → EReal) (x3 : (⟨S2x500000, .i32⟩ : BufTy).Contents (Elt Ideal))
    (x4 x5 x6 x7 : S128.Idx → EReal) (x8 : S256x128.Idx → EReal) (x9 : S256.Idx → EReal) (x10 : S256x256.Idx → EReal) (x11 : S256.Idx → EReal)
    (x12 x13 x14 x15 : S128.Idx → EReal) (x16 : S128x128.Idx → EReal) (x17 : S128.Idx → EReal) (x18 : S128x128.Idx → EReal) (x19 : S128.Idx → EReal) :
    S100000x128.Idx → EReal :=
  Cert.Mlp.apply (R := 100000) (D := 128) (H := 128) (O := 128)
    (aggregate (Cert.Mlp.apply (R := 500000) (D := 128) (H := 256) (O := 256) x0 (asRow x4) (asRow x5) (asRow x6) (asRow x7) x8 (asRow x9) x10 (asRow x11)) x3)
    (asRow x12) (asRow x13) (asRow x14) (asRow x15) x16 (asRow x17) x18 (asRow x19)

end Cert.KernelIdeal.Whole

end
-- ==== Proof.KernelRun.lean ====
/-
  The whole program, run. Its text is: six reshapes of the first network's statistics and biases to `[1, ·]` rows;
  region 0; the aggregation (slices of the index table and of region 0's output, two scatter-additions, a sum) and six
  more reshapes; region 1. Every buffer's contents at the end are a fold through these four stretches from the launch
  memory. Read at the result buffer, the fold is: region 1's array after its grid, which is the network on the rows
  of its row operand; that operand is the aggregation of region 0's array, which is the network on the token rows;
  and every statistics row is a reshape of an argument that nothing writes. So the result is `result` of the
  arguments, and the arguments end as launched.
-/
import proofs.«136699_j62002147885262_1_alg».proof.Proof.Gen.KernelIdeal.Frame
import proofs.«136699_j62002147885262_1_alg».proof.Proof.TokenArray
import proofs.«136699_j62002147885262_1_alg».proof.Proof.NodeArray
import proofs.«136699_j62002147885262_1_alg».proof.Proof.Aggregate
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Every weakly fair execution ends with every unscoped buffer at the fold's last contents -/

set_option backward.isDefEq.respectTransparency.types false in
/-- The launch over @main's four segments, keeping what the final thread state says of EVERY unscoped buffer. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The first stretch: region 0 finds the arguments as launched and the statistics as `[1, ·]` reshapes -/

theorem entry0_main_arg0 (c : Dev nD) : V1 m ρ c main_arg0 = m ((c : Thread nD τ).loc main_arg0) := by
  dsimp only [V1, W1, hostOps0]; after_results
theorem entry0_main_arg8 (c : Dev nD) : V1 m ρ c main_arg8 = m ((c : Thread nD τ).loc main_arg8) := by
  dsimp only [V1, W1, hostOps0]; after_results
theorem entry0_main_arg10 (c : Dev nD) : V1 m ρ c main_arg10 = m ((c : Thread nD τ).loc main_arg10) := by
  dsimp only [V1, W1, hostOps0]; after_results

theorem entry0_main_v0 (c : Dev nD) : V1 m ρ c main_v0 = shapeCast S1x128 (m ((c : Thread nD τ).loc main_arg4)) shapeCasts_S128_S1x128 := by
  dsimp only [V1, W1, hostOps0]; after_results; rfl
theorem entry0_main_v1 (c : Dev nD) : V1 m ρ c main_v1 = shapeCast S1x128 (m ((c : Thread nD τ).loc main_arg5)) shapeCasts_S128_S1x128 := by
  dsimp only [V1, W1, hostOps0]; after_results; rfl
theorem entry0_main_v2 (c : Dev nD) : V1 m ρ c main_v2 = shapeCast S1x128 (m ((c : Thread nD τ).loc main_arg6)) shapeCasts_S128_S1x128 := by
  dsimp only [V1, W1, hostOps0]; after_results; rfl
theorem entry0_main_v3 (c : Dev nD) : V1 m ρ c main_v3 = shapeCast S1x128 (m ((c : Thread nD τ).loc main_arg7)) shapeCasts_S128_S1x128 := by
  dsimp only [V1, W1, hostOps0]; after_results; rfl
theorem entry0_main_v4 (c : Dev nD) : V1 m ρ c main_v4 = shapeCast S1x256 (m ((c : Thread nD τ).loc main_arg9)) shapeCasts_S256_S1x256 := by
  dsimp only [V1, W1, hostOps0]; after_results; rfl
theorem entry0_main_v5 (c : Dev nD) : V1 m ρ c main_v5 = shapeCast S1x256 (m ((c : Thread nD τ).loc main_arg11)) shapeCasts_S256_S1x256 := by
  dsimp only [V1, W1, hostOps0]; after_results; rfl

/-! ## After region 0: its output array is the token network; what it does not write is as launched -/

theorem exit0_main_v6 (c : Dev nD) : W2 m ρ c (Proc.devRef .tc main_v6) = Cert.KernelIdeal.Tokens.whole (V1 m ρ) c :=
  (W2_arr m ρ c 9).trans (Cert.KernelIdeal.Tokens.final (V1 m ρ) c)

theorem exit0_main_arg3 (c : Dev nD) : W2 m ρ c (Proc.devRef .tc main_arg3) = m ((c : Thread nD τ).loc main_arg3) :=
  (W2_of_ne m ρ c main_arg3 (by decide)).trans (by dsimp only [W1, hostOps0]; after_results)
theorem exit0_main_arg12 (c : Dev nD) : W2 m ρ c (Proc.devRef .tc main_arg12) = m ((c : Thread nD τ).loc main_arg12) :=
  (W2_of_ne m ρ c main_arg12 (by decide)).trans (by dsimp only [W1, hostOps0]; after_results)
theorem exit0_main_arg13 (c : Dev nD) : W2 m ρ c (Proc.devRef .tc main_arg13) = m ((c : Thread nD τ).loc main_arg13) :=
  (W2_of_ne m ρ c main_arg13 (by decide)).trans (by dsimp only [W1, hostOps0]; after_results)
theorem exit0_main_arg14 (c : Dev nD) : W2 m ρ c (Proc.devRef .tc main_arg14) = m ((c : Thread nD τ).loc main_arg14) :=
  (W2_of_ne m ρ c main_arg14 (by decide)).trans (by dsimp only [W1, hostOps0]; after_results)
theorem exit0_main_arg15 (c : Dev nD) : W2 m ρ c (Proc.devRef .tc main_arg15) = m ((c : Thread nD τ).loc main_arg15) :=
  (W2_of_ne m ρ c main_arg15 (by decide)).trans (by dsimp only [W1, hostOps0]; after_results)
theorem exit0_main_arg16 (c : Dev nD) : W2 m ρ c (Proc.devRef .tc main_arg16) = m ((c : Thread nD τ).loc main_arg16) :=
  (W2_of_ne m ρ c main_arg16 (by decide)).trans (by dsimp only [W1, hostOps0]; after_results)
theorem exit0_main_arg17 (c : Dev nD) : W2 m ρ c (Proc.devRef .tc main_arg17) = m ((c : Thread nD τ).loc main_arg17) :=
  (W2_of_ne m ρ c main_arg17 (by decide)).trans (by dsimp only [W1, hostOps0]; after_results)
theorem exit0_main_arg18 (c : Dev nD) : W2 m ρ c (Proc.devRef .tc main_arg18) = m ((c : Thread nD τ).loc main_arg18) :=
  (W2_of_ne m ρ c main_arg18 (by decide)).trans (by dsimp only [W1, hostOps0]; after_results)
theorem exit0_main_arg19 (c : Dev nD) : W2 m ρ c (Proc.devRef .tc main_arg19) = m ((c : Thread nD τ).loc main_arg19) :=
  (W2_of_ne m ρ c main_arg19 (by decide)).trans (by dsimp only [W1, hostOps0]; after_results)

/-! ## The second stretch: region 1 finds the aggregated rows, its statistics as reshapes, its weights as launched -/

theorem entry1_main_v19 (c : Dev nD) :
    V3 m ρ c main_v19 = aggregate (W2 m ρ c (Proc.devRef .tc main_v6)) (W2 m ρ c (Proc.devRef .tc main_arg3)) := by
  dsimp only [V3, W3, hostOps1]; after_results; rfl

theorem entry1_main_v20 (c : Dev nD) : V3 m ρ c main_v20 = shapeCast S1x128 (W2 m ρ c (Proc.devRef .tc main_arg12)) shapeCasts_S128_S1x128 := by
  dsimp only [V3, W3, hostOps1]; after_results; rfl
theorem entry1_main_v21 (c : Dev nD) : V3 m ρ c main_v21 = shapeCast S1x128 (W2 m ρ c (Proc.devRef .tc main_arg13)) shapeCasts_S128_S1x128 := by
  dsimp only [V3, W3, hostOps1]; after_results; rfl
theorem entry1_main_v22 (c : Dev nD) : V3 m ρ c main_v22 = shapeCast S1x128 (W2 m ρ c (Proc.devRef .tc main_arg14)) shapeCasts_S128_S1x128 := by
  dsimp only [V3, W3, hostOps1]; after_results; rfl
theorem entry1_main_v23 (c : Dev nD) : V3 m ρ c main_v23 = shapeCast S1x128 (W2 m ρ c (Proc.devRef .tc main_arg15)) shapeCasts_S128_S1x128 := by
  dsimp only [V3, W3, hostOps1]; after_results; rfl
theorem entry1_main_v24 (c : Dev nD) : V3 m ρ c main_v24 = shapeCast S1x128 (W2 m ρ c (Proc.devRef .tc main_arg17)) shapeCasts_S128_S1x128 := by
  dsimp only [V3, W3, hostOps1]; after_results; rfl
theorem entry1_main_v25 (c : Dev nD) : V3 m ρ c main_v25 = shapeCast S1x128 (W2 m ρ c (Proc.devRef .tc main_arg19)) shapeCasts_S128_S1x128 := by
  dsimp only [V3, W3, hostOps1]; after_results; rfl

theorem entry1_main_arg16 (c : Dev nD) : V3 m ρ c main_arg16 = W2 m ρ c (Proc.devRef .tc main_arg16) := by
  dsimp only [V3, W3, hostOps1]; after_results
theorem entry1_main_arg18 (c : Dev nD) : V3 m ρ c main_arg18 = W2 m ρ c (Proc.devRef .tc main_arg18) := by
  dsimp only [V3, W3, hostOps1]; after_results

/-! ## A vector reshaped to one row -/

theorem row128 (x : S128.Idx → EReal) : shapeCast S1x128 x shapeCasts_S128_S1x128 = asRow x := by
  funext i
  obtain ⟨u, k, rfl⟩ : ∃ (u : Fin 1) (k : Fin 128), i = ix2 u k := ⟨i 0, i 1, eq_ix2 i⟩
  exact shapeCast_a_1a_apply x shapeCasts_S128_S1x128 u k
theorem row256 (x : S256.Idx → EReal) : shapeCast S1x256 x shapeCasts_S256_S1x256 = asRow x := by
  funext i
  obtain ⟨u, k, rfl⟩ : ∃ (u : Fin 1) (k : Fin 256), i = ix2 u k := ⟨i 0, i 1, eq_ix2 i⟩
  exact shapeCast_a_1a_apply x shapeCasts_S256_S1x256 u k

/-! ## The result buffer -/

/-- The network respects equality of each of its nine operands. -/
theorem apply_congr {R D H O : ℕ} {x x' : Cert.Mlp.Arr R D} {g g' β β' mean mean' var var' : Cert.Mlp.Arr 1 D} {w1 w1' : Cert.Mlp.Arr H D}
    {b1 b1' : Cert.Mlp.Arr 1 H} {w2 w2' : Cert.Mlp.Arr O H} {b2 b2' : Cert.Mlp.Arr 1 O}
    (hx : x = x') (hg : g = g') (hβ : β = β') (hm : mean = mean') (hv : var = var') (hw1 : w1 = w1') (hb1 : b1 = b1') (hw2 : w2 = w2') (hb2 : b2 = b2') :
    Cert.Mlp.apply x g β mean var w1 b1 w2 b2 = Cert.Mlp.apply x' g' β' mean' var' w1' b1' w2' b2' := by
  subst hx hg hβ hm hv hw1 hb1 hw2 hb2; rfl

/-- Region 0's output array, in the arguments: the token network. -/
theorem tokens_out (c : Dev nD) : W2 m ρ c (Proc.devRef .tc main_v6)
    = Cert.Mlp.apply (R := 500000) (D := 128) (H := 256) (O := 256) (m ((c : Thread nD τ).loc main_arg0)) (asRow (m ((c : Thread nD τ).loc main_arg4))) (asRow (m ((c : Thread nD τ).loc main_arg5))) (asRow (m ((c : Thread nD τ).loc main_arg6))) (asRow (m ((c : Thread nD τ).loc main_arg7)))
        (m ((c : Thread nD τ).loc main_arg8)) (asRow (m ((c : Thread nD τ).loc main_arg9))) (m ((c : Thread nD τ).loc main_arg10)) (asRow (m ((c : Thread nD τ).loc main_arg11))) :=
  (exit0_main_v6 m ρ c).trans (apply_congr (R := 500000) (D := 128) (H := 256) (O := 256)
    (entry0_main_arg0 m ρ c) ((entry0_main_v0 m ρ c).trans (row128 _)) ((entry0_main_v1 m ρ c).trans (row128 _))
    ((entry0_main_v2 m ρ c).trans (row128 _)) ((entry0_main_v3 m ρ c).trans (row128 _)) (entry0_main_arg8 m ρ c)
    ((entry0_main_v4 m ρ c).trans (row256 _)) (entry0_main_arg10 m ρ c) ((entry0_main_v5 m ρ c).trans (row256 _)))

/-- The fold at the result buffer is `result` of the arguments. -/
theorem value (c : Dev nD) : W4 m ρ c (Proc.devRef .tc main_v26)
    = result (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W4_arr m ρ c 9).trans ((Cert.KernelIdeal.Nodes.final (V3 m ρ) c).trans (apply_congr (R := 100000) (D := 128) (H := 128) (O := 128)
    ((entry1_main_v19 m ρ c).trans (congrArg₂ aggregate (tokens_out m ρ c) (exit0_main_arg3 m ρ c)))
    ((entry1_main_v20 m ρ c).trans ((congrArg (shapeCast S1x128 · shapeCasts_S128_S1x128) (exit0_main_arg12 m ρ c)).trans (row128 _)))
    ((entry1_main_v21 m ρ c).trans ((congrArg (shapeCast S1x128 · shapeCasts_S128_S1x128) (exit0_main_arg13 m ρ c)).trans (row128 _)))
    ((entry1_main_v22 m ρ c).trans ((congrArg (shapeCast S1x128 · shapeCasts_S128_S1x128) (exit0_main_arg14 m ρ c)).trans (row128 _)))
    ((entry1_main_v23 m ρ c).trans ((congrArg (shapeCast S1x128 · shapeCasts_S128_S1x128) (exit0_main_arg15 m ρ c)).trans (row128 _)))
    ((entry1_main_arg16 m ρ c).trans (exit0_main_arg16 m ρ c))
    ((entry1_main_v24 m ρ c).trans ((congrArg (shapeCast S1x128 · shapeCasts_S128_S1x128) (exit0_main_arg17 m ρ c)).trans (row128 _)))
    ((entry1_main_arg18 m ρ c).trans (exit0_main_arg18 m ρ c))
    ((entry1_main_v25 m ρ c).trans ((congrArg (shapeCast S1x128 · shapeCasts_S128_S1x128) (exit0_main_arg19 m ρ c)).trans (row128 _)))))

/-- THE RUN: every weakly fair execution terminates, nothing faulting, with the result buffer at `result` of the
    arguments and every argument as launched. -/
theorem run : θ_run defs (onTc (τ := τ) (main (F := Ideal))) ⟨m, fun _ => 0, ρ⟩ (fun r => ∀ c : Dev nD,
      r.2.mem ((c : Thread nD τ).loc main_v26)
        = result (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun r h c =>
    ⟨(h c _ (mem_uc main_v26 (by decide))).trans (value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c)⟩)
    (run_all m ρ)

end Cert.KernelIdeal.Whole

end
-- ==== Proof.RefValue.lean ====
/-
  The reference, read. Its text is the same three steps in plain array operations: the token network (broadcasts
  of the statistics, a transpose of each weight matrix and a `dot_general` contracting the transposed matrix's FIRST
  axis, a `maximum` with zero), the aggregation, the node network. Read index by index through its stages, each
  network is the row function of the specification — the transposes turn the contraction of a first axis back into
  the contraction of the stored matrices' last axis — and the aggregation is, operation for operation, the one the
  kernel's program states. So the reference's result is the same `result` of the arguments.
-/
import proofs.«136699_j62002147885262_1_alg».proof.Proof.Gen.ReferenceIdeal.Read
import proofs.«136699_j62002147885262_1_alg».proof.Proof.Aggregate

set_option maxRecDepth 16384

noncomputable section

namespace Cert.ReferenceIdeal.RefValue

open Cert.ReferenceIdeal Cert.ReferenceIdeal.Read Idealize.ShloMosaic Idealize.ShloMosaic.ValueIdx
open Cert.KernelIdeal.Whole (asRow aggregate result)

/-! ## The stages' index functions at explicit coordinates -/

theorem tok_b2bc (p : Fin 500000) (q : Fin 256) : idx_main_v24 (ix2 p q) = ix2 (0 : Fin 1) q :=
  funext fun a => Fin.ext (by match a with | ⟨0, _⟩ => rfl | ⟨1, _⟩ => rfl)
theorem tok_b2row (u : Fin 1) (q : Fin 256) : idx_main_v23 (ix2 u q) = ix1 q :=
  funext fun a => Fin.ext (by match a with | ⟨0, _⟩ => rfl)
theorem tok_l2 (p : Fin 500000) (q : Fin 256) (j : Fin 256) : lidx_main_v22 (ix2 p q) j = ix2 p j :=
  funext fun a => Fin.ext (by match a with | ⟨0, _⟩ => rfl | ⟨1, _⟩ => rfl)
theorem tok_r2 (p : Fin 500000) (q : Fin 256) (j : Fin 256) : ridx_main_v22 (ix2 p q) j = ix2 j q :=
  funext fun a => Fin.ext (by match a with | ⟨0, _⟩ => rfl | ⟨1, _⟩ => rfl)
theorem tok_t2 (j : Fin 256) (q : Fin 256) : idx_main_v21 (ix2 j q) = ix2 q j :=
  funext fun a => Fin.ext (by match a with | ⟨0, _⟩ => rfl | ⟨1, _⟩ => rfl)
theorem tok_b1bc (p : Fin 500000) (j : Fin 256) : idx_main_v18 (ix2 p j) = ix2 (0 : Fin 1) j :=
  funext fun a => Fin.ext (by match a with | ⟨0, _⟩ => rfl | ⟨1, _⟩ => rfl)
theorem tok_b1row (u : Fin 1) (j : Fin 256) : idx_main_v17 (ix2 u j) = ix1 j :=
  funext fun a => Fin.ext (by match a with | ⟨0, _⟩ => rfl)
theorem tok_l1 (p : Fin 500000) (j : Fin 256) (k : Fin 128) : lidx_main_v16 (ix2 p j) k = ix2 p k :=
  funext fun a => Fin.ext (by match a with | ⟨0, _⟩ => rfl | ⟨1, _⟩ => rfl)
theorem tok_r1 (p : Fin 500000) (j : Fin 256) (k : Fin 128) : ridx_main_v16 (ix2 p j) k = ix2 k j :=
  funext fun a => Fin.ext (by match a with | ⟨0, _⟩ => rfl | ⟨1, _⟩ => rfl)
theorem tok_t1 (k : Fin 128) (j : Fin 256) : idx_main_v15 (ix2 k j) = ix2 j k :=
  funext fun a => Fin.ext (by match a with | ⟨0, _⟩ => rfl | ⟨1, _⟩ => rfl)
theorem tok_s0bc (p : Fin 500000) (k : Fin 128) : idx_main_v13 (ix2 p k) = ix2 (0 : Fin 1) k :=
  funext fun a => Fin.ext (by match a with | ⟨0, _⟩ => rfl | ⟨1, _⟩ => rfl)
theorem tok_s0row (u : Fin 1) (k : Fin 128) : idx_main_v12 (ix2 u k) = ix1 k :=
  funext fun a => Fin.ext (by match a with | ⟨0, _⟩ => rfl)
theorem tok_s1bc (p : Fin 500000) (k : Fin 128) : idx_main_v10 (ix2 p k) = ix2 (0 : Fin 1) k :=
  funext fun a => Fin.ext (by match a with | ⟨0, _⟩ => rfl | ⟨1, _⟩ => rfl)
theorem tok_s1row (u : Fin 1) (k : Fin 128) : idx_main_v9 (ix2 u k) = ix1 k :=
  funext fun a => Fin.ext (by match a with | ⟨0, _⟩ => rfl)
theorem tok_s2bc (p : Fin 500000) (k : Fin 128) : idx_main_v7 (ix2 p k) = ix2 (0 : Fin 1) k :=
  funext fun a => Fin.ext (by match a with | ⟨0, _⟩ => rfl | ⟨1, _⟩ => rfl)
theorem tok_s2row (u : Fin 1) (k : Fin 128) : idx_main_v6 (ix2 u k) = ix1 k :=
  funext fun a => Fin.ext (by match a with | ⟨0, _⟩ => rfl)
theorem tok_s3bc (p : Fin 500000) (k : Fin 128) : idx_main_v1 (ix2 p k) = ix2 (0 : Fin 1) k :=
  funext fun a => Fin.ext (by match a with | ⟨0, _⟩ => rfl | ⟨1, _⟩ => rfl)
theorem tok_s3row (u : Fin 1) (k : Fin 128) : idx_main_v0 (ix2 u k) = ix1 k :=
  funext fun a => Fin.ext (by match a with | ⟨0, _⟩ => rfl)
theorem node_b2bc (p : Fin 100000) (q : Fin 128) : idx_main_v63 (ix2 p q) = ix2 (0 : Fin 1) q :=
  funext fun a => Fin.ext (by match a with | ⟨0, _⟩ => rfl | ⟨1, _⟩ => rfl)
theorem node_b2row (u : Fin 1) (q : Fin 128) : idx_main_v62 (ix2 u q) = ix1 q :=
  funext fun a => Fin.ext (by match a with | ⟨0, _⟩ => rfl)
theorem node_l2 (p : Fin 100000) (q : Fin 128) (j : Fin 128) : lidx_main_v61 (ix2 p q) j = ix2 p j :=
  funext fun a => Fin.ext (by match a with | ⟨0, _⟩ => rfl | ⟨1, _⟩ => rfl)
theorem node_r2 (p : Fin 100000) (q : Fin 128) (j : Fin 128) : ridx_main_v61 (ix2 p q) j = ix2 j q :=
  funext fun a => Fin.ext (by match a with | ⟨0, _⟩ => rfl | ⟨1, _⟩ => rfl)
theorem node_t2 (j : Fin 128) (q : Fin 128) : idx_main_v60 (ix2 j q) = ix2 q j :=
  funext fun a => Fin.ext (by match a with | ⟨0, _⟩ => rfl | ⟨1, _⟩ => rfl)
theorem node_b1bc (p : Fin 100000) (j : Fin 128) : idx_main_v57 (ix2 p j) = ix2 (0 : Fin 1) j :=
  funext fun a => Fin.ext (by match a with | ⟨0, _⟩ => rfl | ⟨1, _⟩ => rfl)
theorem node_b1row (u : Fin 1) (j : Fin 128) : idx_main_v56 (ix2 u j) = ix1 j :=
  funext fun a => Fin.ext (by match a with | ⟨0, _⟩ => rfl)
theorem node_l1 (p : Fin 100000) (j : Fin 128) (k : Fin 128) : lidx_main_v55 (ix2 p j) k = ix2 p k :=
  funext fun a => Fin.ext (by match a with | ⟨0, _⟩ => rfl | ⟨1, _⟩ => rfl)
theorem node_r1 (p : Fin 100000) (j : Fin 128) (k : Fin 128) : ridx_main_v55 (ix2 p j) k = ix2 k j :=
  funext fun a => Fin.ext (by match a with | ⟨0, _⟩ => rfl | ⟨1, _⟩ => rfl)
theorem node_t1 (k : Fin 128) (j : Fin 128) : idx_main_v54 (ix2 k j) = ix2 j k :=
  funext fun a => Fin.ext (by match a with | ⟨0, _⟩ => rfl | ⟨1, _⟩ => rfl)
theorem node_s0bc (p : Fin 100000) (k : Fin 128) : idx_main_v52 (ix2 p k) = ix2 (0 : Fin 1) k :=
  funext fun a => Fin.ext (by match a with | ⟨0, _⟩ => rfl | ⟨1, _⟩ => rfl)
theorem node_s0row (u : Fin 1) (k : Fin 128) : idx_main_v51 (ix2 u k) = ix1 k :=
  funext fun a => Fin.ext (by match a with | ⟨0, _⟩ => rfl)
theorem node_s1bc (p : Fin 100000) (k : Fin 128) : idx_main_v49 (ix2 p k) = ix2 (0 : Fin 1) k :=
  funext fun a => Fin.ext (by match a with | ⟨0, _⟩ => rfl | ⟨1, _⟩ => rfl)
theorem node_s1row (u : Fin 1) (k : Fin 128) : idx_main_v48 (ix2 u k) = ix1 k :=
  funext fun a => Fin.ext (by match a with | ⟨0, _⟩ => rfl)
theorem node_s2bc (p : Fin 100000) (k : Fin 128) : idx_main_v46 (ix2 p k) = ix2 (0 : Fin 1) k :=
  funext fun a => Fin.ext (by match a with | ⟨0, _⟩ => rfl | ⟨1, _⟩ => rfl)
theorem node_s2row (u : Fin 1) (k : Fin 128) : idx_main_v45 (ix2 u k) = ix1 k :=
  funext fun a => Fin.ext (by match a with | ⟨0, _⟩ => rfl)
theorem node_s3bc (p : Fin 100000) (k : Fin 128) : idx_main_v40 (ix2 p k) = ix2 (0 : Fin 1) k :=
  funext fun a => Fin.ext (by match a with | ⟨0, _⟩ => rfl | ⟨1, _⟩ => rfl)
theorem node_s3row (u : Fin 1) (k : Fin 128) : idx_main_v39 (ix2 u k) = ix1 k :=
  funext fun a => Fin.ext (by match a with | ⟨0, _⟩ => rfl)

/-! ## The token network -/

theorem tokens_eq (x0 : (⟨S500000x128, .f32⟩ : BufTy).Contents (Elt Ideal)) (x4 x5 x6 x7 : (⟨S128, .f32⟩ : BufTy).Contents (Elt Ideal)) (x8 : (⟨S256x128, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) :
    val_main_v25 (F := Ideal) x0 x4 x5 x6 x7 x8 x9 x10 x11
      = Cert.Mlp.apply (R := 500000) (D := 128) (H := 256) (O := 256) x0 (asRow x4) (asRow x5) (asRow x6) (asRow x7) x8 (asRow x9) x10 (asRow x11) := by
  funext i
  obtain ⟨p, q, rfl⟩ : ∃ (p : Fin 500000) (q : Fin 256), i = ix2 p q := ⟨i 0, i 1, eq_ix2 i⟩
  rw [Cert.Mlp.apply_ix2]
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_call0_v0_apply, val_main_call0_cst_apply, val_main_cst_apply,
    tok_b2bc, tok_b2row, tok_l2, tok_r2, tok_t2, tok_b1bc, tok_b1row, tok_l1, tok_r1, tok_t1, tok_s0bc, tok_s0row, tok_s1bc, tok_s1row, tok_s2bc, tok_s2row, tok_s3bc, tok_s3row]
  unfold Cert.Mlp.row Cert.Mlp.hidden Cert.Mlp.norm Cert.Mlp.eps asRow
  simp only [Ideal.addf_def, Ideal.subf_def, Ideal.mulf_def, Ideal.maximumf_def, Ideal.hostUnary_rsqrt_def, Ideal.ofBits_def, Ideal.ofBits_zero_f32]

/-! ## The aggregation -/

theorem aggregate_eq (x0 : (⟨S500000x128, .f32⟩ : BufTy).Contents (Elt Ideal)) (x4 x5 x6 x7 : (⟨S128, .f32⟩ : BufTy).Contents (Elt Ideal)) (x8 : (⟨S256x128, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x3 : (⟨S2x500000, .i32⟩ : BufTy).Contents (Elt Ideal)) :
    val_main_v38 (F := Ideal) x0 x3 x4 x5 x6 x7 x8 x9 x10 x11 = aggregate (val_main_v25 (F := Ideal) x0 x4 x5 x6 x7 x8 x9 x10 x11) x3 := by
  unfold val_main_v38 val_main_v31 val_main_v37 val_main_v26 val_main_v32 val_main_v29 val_main_v35 val_main_v30 val_main_v36
    val_main_v28 val_main_v34 val_main_v27 val_main_v33 val_main_cst_0 val_main_cst_1 aggregate
  rfl

/-! ## The node network, and the whole -/

theorem result_eq (x0 : (⟨S500000x128, .f32⟩ : BufTy).Contents (Elt Ideal)) (x4 x5 x6 x7 : (⟨S128, .f32⟩ : BufTy).Contents (Elt Ideal)) (x8 : (⟨S256x128, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x3 : (⟨S2x500000, .i32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v64 (F := Ideal) x0 x3 x4 x5 x6 x7 x8 x9 x10 x11 x12 x13 x14 x15 x16 x17 x18 x19 = result x0 x3 x4 x5 x6 x7 x8 x9 x10 x11 x12 x13 x14 x15 x16 x17 x18 x19 := by
  unfold result
  rw [← tokens_eq, ← aggregate_eq]
  funext i
  obtain ⟨p, q, rfl⟩ : ∃ (p : Fin 100000) (q : Fin 128), i = ix2 p q := ⟨i 0, i 1, eq_ix2 i⟩
  rw [Cert.Mlp.apply_ix2]
  simp only [val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_call1_v0_apply, val_main_call1_cst_apply, val_main_cst_2_apply,
    node_b2bc, node_b2row, node_l2, node_r2, node_t2, node_b1bc, node_b1row, node_l1, node_r1, node_t1, node_s0bc, node_s0row, node_s1bc, node_s1row, node_s2bc, node_s2row, node_s3bc, node_s3row]
  unfold Cert.Mlp.row Cert.Mlp.hidden Cert.Mlp.norm Cert.Mlp.eps asRow
  simp only [Ideal.addf_def, Ideal.subf_def, Ideal.mulf_def, Ideal.maximumf_def, Ideal.hostUnary_rsqrt_def, Ideal.ofBits_def, Ideal.ofBits_zero_f32]

end Cert.ReferenceIdeal.RefValue

end
-- ==== Proof.lean ====
/-
  The certificate of a two-stage message-passing layer against its plain array reference.

  Both programs compute, from 500000 token rows `x`, a `[2, 500000]` table of node numbers and two sets of network
  parameters: `y = net₁(x)`, a `[500000, 256]` array, each row the image of the same row of `x` under batch
  normalisation with fixed statistics, a linear layer to 256 with bias, a clip at zero and a second linear layer;
  then `nf[n] = Σ_{t : idx[0,t] = n} y[t, 0:128] + Σ_{t : idx[1,t] = n} y[t, 128:256]`, a `[100000, 128]` array; then
  `net₂(nf)`, the same kind of network with 128-wide layers. The kernel's program runs each network as a grid of row
  tiles (4000 token rows, 5000 node rows per point) with the matrix products fed in a narrower float format; the
  reference runs them as whole-array operations on transposed weights.

  At the ideal instance a format change is the identity and a matrix product is the plain sum over the contracted
  axis, so a row tile's output is the restriction of the whole-array network to that tile (a row's output depends on
  that row only), the tiles cover their arrays, and the two programs' results are ONE function `result` of the
  arguments (`Cert.KernelIdeal.Whole.result`): the kernel's side is `Cert.KernelIdeal.Whole.run`, the reference's
  `Cert.ReferenceIdeal.RefValue.result_eq` over its generated run. No law beyond the definitions of the operations
  is used — the sums even run in the same order — so the precondition is never opened. The ideal pass rewrote
  nothing, so `preserves` is `True`; the three frames are the generated frame runs.
-/
import proofs.«136699_j62002147885262_1_alg».proof.Defs
import proofs.«136699_j62002147885262_1_alg».proof.Proof.Gen.Kernel
import proofs.«136699_j62002147885262_1_alg».proof.Proof.Gen.Kernel.Skeleton
import proofs.«136699_j62002147885262_1_alg».proof.Proof.Gen.Kernel.Launch
import proofs.«136699_j62002147885262_1_alg».proof.Proof.Gen.Kernel.Points
import proofs.«136699_j62002147885262_1_alg».proof.Proof.Gen.Kernel.Frame
import proofs.«136699_j62002147885262_1_alg».proof.Proof.Gen.KernelIdeal
import proofs.«136699_j62002147885262_1_alg».proof.Proof.Gen.KernelIdeal.Skeleton
import proofs.«136699_j62002147885262_1_alg».proof.Proof.Gen.KernelIdeal.Launch
import proofs.«136699_j62002147885262_1_alg».proof.Proof.Gen.KernelIdeal.Points
import proofs.«136699_j62002147885262_1_alg».proof.Proof.Gen.KernelIdeal.Frame
import proofs.«136699_j62002147885262_1_alg».proof.Proof.Gen.ReferenceIdeal
import proofs.«136699_j62002147885262_1_alg».proof.Proof.Gen.Pre_finite_inputs
import proofs.«136699_j62002147885262_1_alg».proof.Proof.Gen.ReferenceIdeal.Run
import proofs.«136699_j62002147885262_1_alg».proof.Proof.Gen.ReferenceIdeal.Read
import proofs.«136699_j62002147885262_1_alg».proof.Proof.KernelRun
import proofs.«136699_j62002147885262_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end at `result` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v64_eq, Cert.ReferenceIdeal.RefValue.result_eq,
    h0, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
